-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S1024x2048 : Shape := ⟨2, ![1024, 2048]⟩
abbrev S1x2048 : Shape := ⟨2, ![1, 2048]⟩
abbrev S2048 : Shape := ⟨1, ![2048]⟩
abbrev S_ : Shape := ⟨0, ![]⟩
abbrev S4097 : Shape := ⟨1, ![4097]⟩
abbrev S4096x1 : Shape := ⟨2, ![4096, 1]⟩

abbrev nBuf : Space → Nat
  | .hbm => 70
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .i32⟩
  | .hbm, ⟨20, _⟩ => ⟨S_, .i32⟩
  | .hbm, ⟨21, _⟩ => ⟨S4097, .i32⟩
  | .hbm, ⟨22, _⟩ => ⟨S_, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S_, .i32⟩
  | .hbm, ⟨35, _⟩ => ⟨S4096, .i32⟩
  | .hbm, ⟨36, _⟩ => ⟨S4097, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096, .i32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .i1⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S1x4096, .f32⟩
  | .hbm, ⟨69, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_call1_v0 : Ref sig .tc := ⟨.hbm, 60, rfl⟩
abbrev main_v40 : Ref sig .tc := ⟨.hbm, 61, rfl⟩
abbrev main_cst_14 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  shapeCasts_S1x4096_S4096 : S1x4096.ShapeCasts S4096
  bcast_S_S4096 : S_.BroadcastsInDim S4096 (![] : Fin 0 → Fin S4096.rank)
  reducesTo_S4096_S_d0 : S4096.ReducesTo [0] S_
  h_S_ : 0 < S_.numel
  bcast_S_S4097 : S_.BroadcastsInDim S4097 (![] : Fin 0 → Fin S4097.rank)
  bcast_S4096_S4096x1_0 : S4096.BroadcastsInDim S4096x1 (![0] : Fin 1 → Fin S4096x1.rank)
  shapeCasts_S4096_S1x4096 : S4096.ShapeCasts S1x4096
  broadcasts_S1x2048_S1024x2048 : S1x2048.Broadcasts S1024x2048
  scatter_S4097_S4096x1_S4096_n_0_0_1_wf : ScatterDims.WF S4097 S4096x1 S4096 [] [0] [0] 1
  gather_S4097_S4096x1_S4096_n_0_n_n_0_1_1_wf : GatherDims.WF S4097 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .f32 = 32 ∨ (Rect.block (s := S8192x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x4096.size a
  hwx0_1 : ∀ i : grid0.Coords, EltTy.bits .f32 = 32 ∨ (Rect.block (s := S1x4096) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .f32 = 32 ∨ (Rect.block (s := S8192x4096) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x4096.size a
  hwx1_1 : ∀ i : grid1.Coords, EltTy.bits .f32 = 32 ∨ (Rect.block (s := S1x4096) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x4096.size a
  hwx1_2 : ∀ i : grid1.Coords, EltTy.bits .f32 = 32 ∨ (Rect.block (s := S8192x4096) S1024x2048.size (cc1_transform_2 i) (hinb1_2 i)).WholeWords (EltTy.packing .f32)

variable [Facts₀]

def scatter_S4097_S4096x1_S4096_n_0_0_1 : ScatterDims S4097 S4096x1 S4096 where
  updateWindowDims := []
  insertedWindowDims := [0]
  scatterDimsToOperandDims := [0]
  indexVectorDim := 1
  wf := scatter_S4097_S4096x1_S4096_n_0_0_1_wf
def gather_S4097_S4096x1_S4096_n_0_n_n_0_1_1 : GatherDims S4097 S4096x1 S4096 where
  offsetDims := []
  collapsedSliceDims := [0]
  operandBatchingDims := []
  startIndicesBatchingDims := []
  startIndexMap := [0]
  indexVectorDim := 1
  sliceSizes := ![1]
  wf := gather_S4097_S4096x1_S4096_n_0_n_n_0_1_1_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096 : Shape := ⟨1, ![4096]⟩
abbrev S_ : Shape := ⟨0, ![]⟩
abbrev S4097 : Shape := ⟨1, ![4097]⟩
abbrev S4096x1 : Shape := ⟨2, ![4096, 1]⟩
abbrev S1x4096 : Shape := ⟨2, ![1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .i32⟩
  | .hbm, ⟨20, _⟩ => ⟨S_, .i32⟩
  | .hbm, ⟨21, _⟩ => ⟨S4097, .i32⟩
  | .hbm, ⟨22, _⟩ => ⟨S_, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S_, .i32⟩
  | .hbm, ⟨35, _⟩ => ⟨S4096, .i32⟩
  | .hbm, ⟨36, _⟩ => ⟨S4097, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096, .i32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .i1⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S1x4096, .f32⟩
  | .hbm, ⟨72, _⟩ => ⟨S8192x4096, .f32⟩
  | .hbm, ⟨73, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_cst_14 : Ref sig .tc := ⟨.hbm, 59, rfl⟩
abbrev main_call1_v0 : Ref sig .tc := ⟨.hbm, 60, rfl⟩
abbrev main_v39 : Ref sig .tc := ⟨.hbm, 61, rfl⟩
abbrev main_cst_15 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_16 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  bcast_S_S4096 : S_.BroadcastsInDim S4096 (![] : Fin 0 → Fin S4096.rank)
  reducesTo_S4096_S_d0 : S4096.ReducesTo [0] S_
  bcast_S_S4097 : S_.BroadcastsInDim S4097 (![] : Fin 0 → Fin S4097.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4097_S4096x1_S4096_n_0_0_1_wf : ScatterDims.WF S4097 S4096x1 S4096 [] [0] [0] 1
  gather_S4097_S4096x1_S4096_n_0_n_n_0_1_1_wf : GatherDims.WF S4097 S4096x1 S4096 [] [0] [] [0] [] 1 ![1]

variable [Facts₀]

def scatter_S4097_S4096x1_S4096_n_0_0_1 : ScatterDims S4097 S4096x1 S4096 where
  updateWindowDims := []
  insertedWindowDims := [0]
  scatterDimsToOperandDims := [0]
  indexVectorDim := 1
  wf := scatter_S4097_S4096x1_S4096_n_0_0_1_wf
def gather_S4097_S4096x1_S4096_n_0_n_n_0_1_1 : GatherDims S4097 S4096x1 S4096 where
  offsetDims := []
  collapsedSliceDims := [0]
  operandBatchingDims := []
  startIndicesBatchingDims := []
  startIndexMap := [0]
  indexVectorDim := 1
  sliceSizes := ![1]
  wf := gather_S4097_S4096x1_S4096_n_0_n_n_0_1_1_wf

class Facts : Prop extends Facts₀ where

variable [Facts]
-- ==== Proof.Chain.lean ====
/-
  The per-feature noise scale as ONE function of the column sums and the noise vector: the host computation both
  programs apply, stage by stage, to the 4096 column sums `s` of the input —
    the batch mean  a = s / 8192;  its least and greatest entries  lo, hi;
    each feature's bin  ⌊4096 · (a − lo) / (hi − lo)⌋  (the float-to-integer conversion of the quotient);
    the histogram of the bins over 4097 cells (a scatter-add of ones at the bins, clamped below at 0 and a negative
    index wrapped by 4097), and each feature's count, the histogram read back at its own bin (a gather);
    the rate  0.1 ^ (1 / (0.6 · count)), replaced by 0.1 where the count is exactly 1;
    sigma = sqrt (rate / (1 − rate));  the scale  sigma · noise.
  Nothing here is evaluated or simplified: the two programs are compared by the VALUE that enters this function (their
  column sums), so min, max, the conversion, the scatter, the gather, the power and the square root stay closed. The
  stages are stated for any float instance.
-/
import proofs.«132048_j73864847556934_1_alg».proof.Proof.Gen.KernelIdeal

noncomputable section

namespace Cert.KernelIdeal.Chain

open Cert.KernelIdeal Cert.KernelIdeal.Facts₀ Idealize.ShloMosaic

variable {F : FTy → Type} [FloatOps F]

/-- A float constant, the same at each of the 4096 features. -/
def spread (w : BitVec 32) : FVec F S4096 .f32 :=
  broadcastInDim S4096 ![] bcast_S_S4096 (constant (F := F) S_ .f32 w)

/-- An integer constant, the same at each of the 4096 features. -/
def spreadI (w : BitVec 32) : IVec S4096 32 :=
  broadcastInDim S4096 ![] bcast_S_S4096 (constantI S_ 32 w)

/-- The batch mean of each feature: its column sum over 8192. -/
def mean (s : FVec F S4096 .f32) : FVec F S4096 .f32 := Host.divf s (spread 0x46000000#32)

/-- The least of the 4096 means (a fold of `min` from +∞) … -/
def lo (a : FVec F S4096 .f32) : FVec F S_ .f32 :=
  Host.reduce FloatOps.minimumf a (constant (F := F) S_ .f32 0x7F800000#32) reducesTo_S4096_S_d0 h_S_

/-- … and the greatest (a fold of `max` from −∞). -/
def hi (a : FVec F S4096 .f32) : FVec F S_ .f32 :=
  Host.reduce FloatOps.maximumf a (constant (F := F) S_ .f32 0xFF800000#32) reducesTo_S4096_S_d0 h_S_

/-- Each feature's bin: `4096 · (a − lo) / (hi − lo)` converted to a 32-bit integer. -/
def bins (a : FVec F S4096 .f32) : IVec S4096 32 :=
  fptosi 32 (Host.divf (mulf (spread 0x45800000#32) (subf a (broadcastInDim S4096 ![] bcast_S_S4096 (lo a))))
    (broadcastInDim S4096 ![] bcast_S_S4096 (subf (hi a) (lo a))))

/-- A negative index counts from the end of the 4097 cells. -/
def wrap (b : IVec S4096 32) : IVec S4096 32 :=
  select (cmpi .slt b (spreadI 0#32)) (addi b (spreadI 4097#32)) b

/-- The bins clamped below at zero. -/
def clampLow (b : IVec S4096 32) : IVec S4096 32 :=
  maxsi (broadcastInDim S4096 ![] bcast_S_S4096 (id (constantI S_ 32 0#32))) b

/-- How many features fall in each of the 4097 cells: ones added at the features' bins, from all zeros. -/
def histogram (b : IVec S4096 32) : IVec S4097 32 :=
  Host.scatter scatter_S4097_S4096x1_S4096_n_0_0_1 IntOp.addi
    (broadcastInDim S4097 ![] bcast_S_S4097 (constantI S_ 32 0#32))
    (broadcastInDim S4096x1 ![0] bcast_S4096_S4096x1_0 (wrap (clampLow b)))
    (spreadI 1#32)

/-- Each feature's count: the histogram read back at the feature's own bin, as a float. -/
def counts (b : IVec S4096 32) : FVec F S4096 .f32 :=
  sitofp .f32 (Host.gather gather_S4097_S4096x1_S4096_n_0_n_n_0_1_1 (histogram b)
    (broadcastInDim S4096x1 ![0] bcast_S4096_S4096x1_0 (wrap b)))

/-- The annealed rate `0.1 ^ (1 / (0.6 · n))`, and `0.1` itself where the count `n` is exactly one. -/
def rate (n : FVec F S4096 .f32) : FVec F S4096 .f32 :=
  select (cmpf .oeq n (spread 0x3F800000#32)) (spread 0x3DCCCCCD#32)
    (Host.powf (spread 0x3DCCCCCD#32) (Host.divf (spread 0x3F800000#32) (mulf (spread 0x3F19999A#32) n)))

/-- `sqrt (d / (1 − d))`. -/
def sigma (d : FVec F S4096 .f32) : FVec F S4096 .f32 :=
  Host.sqrt (Host.divf d (subf (spread 0x3F800000#32) d))

/-- The noise scale of each feature, from the column sums `s` and the noise vector. -/
def scaleOf (s noise : FVec F S4096 .f32) : FVec F S4096 .f32 :=
  mulf (sigma (rate (counts (bins (mean s))))) noise

end Cert.KernelIdeal.Chain

end
-- ==== Proof.RefValue.lean ====
/-
  The reference's result, entry by entry. Its run ends with the result array at one long composed term of the two
  arguments; that term is  x · B (1 + scale),  where `scale` is the shared host function (`Chain.scaleOf`) of the
  reference's column sums and the noise vector, and `B` lays a length-4096 vector out as a row and repeats it over the
  8192 rows. So entry (r, f) is  x (r, f) · (1 + scale f)  (for any float instance), and on the extended reals the
  reference's column sum — a host reduction from the zero word — is the plain sum of the column: 0 + Σ = Σ.
-/
import proofs.«132048_j73864847556934_1_alg».proof.Proof.RefRunPatched
import proofs.«132048_j73864847556934_1_alg».proof.Proof.Chain
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Facts₀ Idealize.ShloMosaic Idealize.ShloMosaic.TcCoe Idealize.SL.Sem
open Idealize.ShloMosaic.ValueIdx
open Cert.KernelIdeal.Chain (scaleOf)

variable {F : FTy → Type} [FloatOps F]

/-- The reference's column sums: the host's add-reduction of the array over its rows, from the zero word. -/
def colSums (x : FVec F S8192x4096 .f32) : FVec F S4096 .f32 :=
  Host.reduceAdd x (constant (F := F) S_ .f32 0x00000000#32) reducesTo_S8192x4096_S4096_d0 h_S_

/-- A length-4096 vector laid out as a [1, 4096] row and repeated over 8192 rows reads, at (r, f), the vector at f. -/
theorem rows_apply {α : Type} (y : S4096.Idx → α) (i : S8192x4096.Idx) :
    broadcastInDim S8192x4096 ![0, 1] bcast_S1x4096_S8192x4096_0_1
      (broadcastInDim S1x4096 ![1] bcast_S4096_S1x4096_1 y) i = y (ix1 ⟨(i 1).val, (i 1).isLt⟩) :=
  (broadcastInDim_apply _ bcast_S1x4096_S8192x4096_0_1 _ i (ix2 (0 : Fin 1) ⟨(i 1).val, (i 1).isLt⟩) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])).trans
  (broadcastInDim_apply _ bcast_S4096_S1x4096_1 y _ (ix1 ⟨(i 1).val, (i 1).isLt⟩) (fun a => match a with
    | ⟨0, _⟩ => by show (i 1).val = if (4096 : Nat) = 1 then 0 else (i 1).val; rw [if_neg (by decide)]))

/-- The run's composed term is the array times the repeated row `1 + scale`, the scale the shared host function of the
    reference's column sums and the noise: the same operations in the same order, so by unfolding alone. -/
theorem result_staged (m : (ℓ : Loc nD τ sig) → Buf (Elt F) ℓ) (c : Dev nD) :
    Cert.ReferenceIdeal.RunP.res_main_v49 m c
      = mulf (m ((c.tc : Thread nD τ).loc main_arg0))
          (broadcastInDim S8192x4096 ![0, 1] bcast_S1x4096_S8192x4096_0_1
            (broadcastInDim S1x4096 ![1] bcast_S4096_S1x4096_1
              (addf (broadcastInDim S4096 ![] bcast_S_S4096 (constant (F := F) S_ .f32 0x3F800000#32))
                (scaleOf (colSums (m ((c.tc : Thread nD τ).loc main_arg0))) (m ((c.tc : Thread nD τ).loc main_arg1)))))) := by
  unfold Cert.ReferenceIdeal.RunP.res_main_v49
  rfl

/-- Entry (r, f) of the reference's result: `x (r, f) · (1 + scale f)`. -/
theorem result_apply (m : (ℓ : Loc nD τ sig) → Buf (Elt F) ℓ) (c : Dev nD) (i : S8192x4096.Idx) :
    Cert.ReferenceIdeal.RunP.res_main_v49 m c i
      = FloatOps.mulf (m ((c.tc : Thread nD τ).loc main_arg0) i)
          (FloatOps.addf (FloatOps.ofBits .f32 0x3F800000#32)
            (scaleOf (colSums (m ((c.tc : Thread nD τ).loc main_arg0))) (m ((c.tc : Thread nD τ).loc main_arg1))
              (ix1 ⟨(i 1).val, (i 1).isLt⟩))) := by
  rw [result_staged]
  exact congrArg (FloatOps.mulf (m ((c.tc : Thread nD τ).loc main_arg0) i)) (rows_apply _ i)

/-- On the extended reals the reference's column sum at feature `f` is the sum of column `f` (the zero word is 0). -/
theorem colSums_apply (x : FVec Ideal S8192x4096 .f32) (j : S4096.Idx) :
    colSums (F := Ideal) x j = ∑ k : Fin 8192, x (ix2 k ⟨(j 0).val, (j 0).isLt⟩) := by
  unfold colSums
  simp only [Host.reduceAdd, Ideal.hostReduceAdd_def]
  rw [Ideal.hostReduceAdd_single reducesTo_S8192x4096_S4096_d0 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

end Cert.ReferenceIdeal.RefValue

end
-- ==== Proof.ValueRun.lean ====
/-
  The idealized kernel's run with its RESULT named. The program is two kernel regions with host operations between
  them, and its buffers' contents at each boundary are a fold from the launch memory: the first region's arrays at what
  its write-backs leave, the host operations applied in order, the second region's arrays at what its write-backs leave
  (`W7`, the contents after the last segment). Every weakly fair execution from a memory with zero counters terminates,
  nothing faulting, with EVERY unscoped buffer at that last boundary's contents; read at the result buffer this names
  the result, and read at the two arguments — which no host operation and no region writes — it gives them back as
  launched. What the last boundary's contents ARE at the result buffer is the business of the modules that read the
  two regions' arrays and the host operations between them; nothing here depends on the float instance.
-/
import proofs.«132048_j73864847556934_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the two arguments as launched. -/
theorem run_result : θ_run defs (onTc (τ := τ) (main (F := F))) ⟨m, fun _ => 0, ρ⟩ (fun r => ∀ c : Dev nD,
      r.2.mem ((c.tc : Thread nD τ).loc main_v47) = W7 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v47 (by decide)),
       (h c _ (mem_uc main_arg0 (by decide))).trans (W7_main_arg0 m ρ c),
       (h c _ (mem_uc main_arg1 (by decide))).trans (W7_main_arg1 m ρ c)⟩)

end Cert.KernelIdeal.ValueRun

end
-- ==== Proof.Between.lean ====
/-
  The host operations between the two kernel regions, read as values. The first region leaves the column sums in a
  [1, 4096] array; the host reshapes it to a length-4096 vector, applies the shared chain (`Chain.scaleOf`) to it and
  the noise vector, and reshapes the scale back to a [1, 4096] row, which is what the second region is entered with —
  the same operations in the same order as the chain's stages, so the equation is by unfolding alone, and the chain is
  never opened. Beside it: each boundary's contents at the buffers the regions stage — the first region's output array
  and the second's at what their write-backs leave, the arguments as launched (no host operation and no region writes
  one). Nothing here depends on the float instance.
-/
import proofs.«132048_j73864847556934_1_alg».proof.Proof.Gen.KernelIdeal.Frame
import proofs.«132048_j73864847556934_1_alg».proof.Proof.Chain
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The scale row the second region is entered with: the shared chain of the first region's output array (as a
    vector) and the noise vector (as the first region leaves it), as a row. -/
theorem scaleRow_eq (c : Dev nD) :
    V6 m ρ c main_v46
      = shapeCast S1x4096 (Chain.scaleOf (shapeCast S4096 (W1 m ρ c (Proc.devRef .tc main_v0)) shapeCasts_S1x4096_S4096)
          (W1 m ρ c (Proc.devRef .tc main_arg1))) shapeCasts_S4096_S1x4096 := by
  show StableHlo.after hostOps1_4 (StableHlo.after hostOps1_3 (StableHlo.after hostOps1_2 (StableHlo.after hostOps1_1
    (StableHlo.after hostOps1 (W1 m ρ c))))) (Proc.devRef .tc main_v46) = _
  simp only [hostOps1, hostOps1_1, hostOps1_2, hostOps1_3, hostOps1_4]
  after_results_simp
  rfl

/-- The first region's output array, after the region, is what its write-backs leave. -/
theorem colRow_eq (c : Dev nD) : W1 m ρ c (Proc.devRef .tc main_v0) = (dat0 (V0 m ρ) c).arrAt 1 cfg0.N :=
  W1_arr m ρ c 1

/-- The noise vector is not one of the first region's arrays: after the region it is as launched. -/
theorem noise_eq (c : Dev nD) : W1 m ρ c (Proc.devRef .tc main_arg1) = m ((c : Thread nD τ).loc main_arg1) :=
  (W1_of_ne m ρ c main_arg1 (by decide)).trans rfl

/-- The first region is entered with the input array as launched. -/
theorem input_at_launch (c : Dev nD) : V0 m ρ c main_arg0 = m ((c : Thread nD τ).loc main_arg0) := rfl

/-- The second region is entered with the input array as launched: it stages it and never writes it back, and the
    last boundary has it as launched. -/
theorem input_at_second (c : Dev nD) : V6 m ρ c main_arg0 = m ((c : Thread nD τ).loc main_arg0) :=
  ((W7_arr m ρ c 0).trans (((dat1 (V6 m ρ) c).arrAt_in 0 rfl _).trans (A_eq1 (V6 m ρ) c 0))).symm.trans (W7_main_arg0 m ρ c)

/-- The result buffer, after the second region, is what its write-backs leave. -/
theorem result_eq (c : Dev nD) : W7 m ρ c (Proc.devRef .tc main_v47) = (dat1 (V6 m ρ) c).arrAt 2 cfg1.N :=
  W7_arr m ρ c 2

end Cert.KernelIdeal.Between

end
-- ==== Proof.ScaleValue.lean ====
import proofs.«132048_j73864847556934_1_alg».proof.Proof.Gen.KernelIdeal.Frame
import Idealize.ShloMosaic.Lib.Pipeline.Value
import Idealize.ShloMosaic.Lib.ValueIdx
import Idealize.ShloMosaic.Lib.ValueLayout

/-! # What the scaling region leaves in its output array

The second region multiplies every entry of the `[8192, 4096]` input `x` by one plus the entry of a
`[1, 4096]` scale row `s` in the same column: entry `(r, f)` of the result is `x(r, f) · (1 + s(0, f))`.
The region works block by block — an `[1024, 2048]` block of `x` against the `[1, 2048]` block of `s` over
the same columns —, every grid point writes its block back, and the 8 × 2 blocks tile the array; so the
array after the region is that one function of `x` and `s`, index by index. Nothing here depends on the
float algebra: the statement holds at any float instance. -/

set_option maxRecDepth 16384

noncomputable section

namespace Cert.KernelIdeal.ScaleValue

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]

/-- The zero offsets of a whole-block access, spelt as a constant function. -/
theorem zero_offsets : (![0, 0] : Fin 2 → Nat) = fun _ => 0 := funext fun a => by fin_cases a <;> rfl

/-- The scaled array: entry `(r, f)` is `x(r, f) · (1 + s(0, f))`, the constant one first in the sum as the
    body adds it. -/
abbrev scaled (X : S8192x4096.Idx → Elt F .f32) (S : S1x4096.Idx → Elt F .f32) : S8192x4096.Idx → Elt F .f32 :=
  fun i => FloatOps.mulf (X i) (FloatOps.addf (FloatOps.ofBits .f32 0x3F800000#32) (S (ix2 (0 : Fin 1) ⟨(i 1).val, (i 1).isLt⟩)))

/-! ## The body's result at an index of its block -/

/-- Entry `(p, q)` of what the body stores: the block of `x` at `(p, q)` times one plus the scale block's one
    row at `q` (the row is broadcast over the 1024 rows; the `[1, 2048]` to `[1, 2048]` cast is the identity). -/
theorem payload_apply (x0 : Vec F S1024x2048 .f32) (x1 : Vec F S1x2048 .f32) (p : Fin 1024) (q : Fin 2048) :
    k1_pay1 x0 x1 (ix2 p q)
      = FloatOps.mulf (x0 (ix2 p q)) (FloatOps.addf (FloatOps.ofBits .f32 0x3F800000#32) (x1 (ix2 (0 : Fin 1) q))) := by
  unfold k1_pay1
  show FloatOps.mulf (x0 (ix2 p q))
      (broadcastTo S1024x2048 (addf (broadcast S1x2048 (Scalar.ofBits .f32 0x3F800000#32))
        (shapeCast S1x2048 x1 shapeCasts_S1x2048_S1x2048)) broadcasts_S1x2048_S1024x2048 (ix2 p q)) = _
  refine congrArg (FloatOps.mulf (x0 (ix2 p q))) ?_
  refine (broadcastTo_1b_ab_apply _ broadcasts_S1x2048_S1024x2048 p q).trans ?_
  rw [shapeCast_self]
  rfl

/-! ## The index maps, decided over the grid -/

/-- At every grid point the block of `x` read is the block written, the scale block read is the one over
    the same columns (its row index is 0), and the written block's indices stay in their ranges. -/
theorem block_indices_agree : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = win1_2.index t (1 : Fin 2)
    ∧ win1_2.index t (0 : Fin 2) ≤ 7
    ∧ win1_2.index t (1 : Fin 2) ≤ 1 :=
  (by decide +kernel : ∀ t : Fin grid1.N, _)

/-- Every block `(b, g)` of the 8 × 2 tiling is some grid point's output block. -/
theorem every_block_written : ∀ (b : Fin 8) (g : Fin 2), ∃ t : Fin cfg1.N, win1_2.index t = ![b.val, g.val] :=
  (by decide +kernel : ∀ (b : Fin 8) (g : Fin 2), ∃ t : Fin grid1.N, win1_2.index t = ![b.val, g.val])

section Blocks
variable (V : (c : Dev nD) → (b : Ref sig .tc) → Buf (Elt F) ((c : Thread nD τ).loc b))

/-! ## The input blocks, read where the output block sits -/

/-- The block of `x` at a point, at `(p, q)`, is `x` at the array index of `(p, q)` in the point's output block. -/
theorem x_block_apply (c : Dev nD) (t : Fin cfg1.N) (p : Fin 1024) (q : Fin 2048) :
    iblk1 V c 0 t (ix2 p q) = V c main_arg0 (((cfg1.win 2).blk t).view.emb (ix2 p q)) := by
  show V c main_arg0 (((cfg1.win 0).blk t).view.emb (ix2 p q)) = _
  refine congrArg (V c main_arg0) ?_
  obtain ⟨e0, e1, -⟩ := block_indices_agree t
  funext a; apply Fin.ext
  match a with
  | ⟨0, _⟩ => show win1_0.index t (0 : Fin 2) * 1024 + 1 * p.val = win1_2.index t (0 : Fin 2) * 1024 + 1 * p.val; omega
  | ⟨1, _⟩ => show win1_0.index t (1 : Fin 2) * 2048 + 1 * q.val = win1_2.index t (1 : Fin 2) * 2048 + 1 * q.val; omega

/-- The scale block at a point, at `(0, q)`, is the scale row at the column of `(p, q)` in the point's output
    block, whatever the row `p`. -/
theorem scale_block_apply (c : Dev nD) (t : Fin cfg1.N) (p : Fin 1024) (q : Fin 2048) :
    iblk1 V c 1 t (ix2 (0 : Fin 1) q)
      = V c main_v46 (ix2 (0 : Fin 1) ⟨((((cfg1.win 2).blk t).view.emb (ix2 p q)) 1).val, ((((cfg1.win 2).blk t).view.emb (ix2 p q)) 1).isLt⟩) := by
  show V c main_v46 (((cfg1.win 1).blk t).view.emb (ix2 (0 : Fin 1) q)) = _
  refine congrArg (V c main_v46) ?_
  obtain ⟨-, -, e2, e3, -⟩ := block_indices_agree t
  funext a; apply Fin.ext
  match a with
  | ⟨0, _⟩ => show win1_1.index t (0 : Fin 2) * 1 + 1 * 0 = 0; omega
  | ⟨1, _⟩ => show win1_1.index t (1 : Fin 2) * 2048 + 1 * q.val = win1_2.index t (1 : Fin 2) * 2048 + 1 * q.val; omega

/-! ## What a point writes back -/

/-- What grid point `t` writes back is block `t` of the scaled array of the region-entry contents. -/
theorem written_back_eq (c : Dev nD) (t : Fin cfg1.N) :
    (dat1 V c).flushed 2 t = ((cfg1.win 2).blk t).view.read (Elt F) (scaled (V c main_arg0) (V c main_v46)) := by
  show (cfg1.win 2).cut (grid1.coords t) ((dat1 V c).after 2 t) = _
  rw [after1_2]
  unfold out1_2
  rw [View.canon_unit_zero zero_offsets]
  simp only [View.ld_unit_zero (S := S1024x2048) zero_offsets, View.ld_unit_zero (S := S1x2048) zero_offsets]
  funext j
  obtain ⟨p, q, rfl⟩ : ∃ (p : Fin 1024) (q : Fin 2048), j = ix2 p q := ⟨j 0, j 1, eq_ix2 j⟩
  show k1_pay1 (iblk1 V c 0 t) (iblk1 V c 1 t) (ix2 p q)
      = FloatOps.mulf (V c main_arg0 (((cfg1.win 2).blk t).view.emb (ix2 p q)))
          (FloatOps.addf (FloatOps.ofBits .f32 0x3F800000#32)
            (V c main_v46 (ix2 (0 : Fin 1) ⟨((((cfg1.win 2).blk t).view.emb (ix2 p q)) 1).val, ((((cfg1.win 2).blk t).view.emb (ix2 p q)) 1).isLt⟩)))
  rw [payload_apply, x_block_apply V c t p q, scale_block_apply V c t p q]

end Blocks

/-! ## The blocks tile the array -/

/-- An index of the array is in point `t`'s output block iff each coordinate is in the block's range on its axis. -/
theorem mem_output_block (t : Fin cfg1.N) (i : S8192x4096.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v47).slice (win1_2.rect t)).set ↔ _
  rw [View.set_slice_whole, Rect.mem_set_unit]
  exact Iff.rfl

/-- Every index `(r, f)` of the array is in the output block of a point that writes back: the point whose block
    index is `(r / 1024, f / 2048)`. -/
theorem output_blocks_cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := every_block_written ⟨(i 0).val / 1024, by omega⟩ ⟨(i 1).val / 2048, by omega⟩
  have q0 : win1_2.index t (0 : Fin 2) = (i 0).val / 1024 := congrFun ht 0
  have q1 : win1_2.index t (1 : Fin 2) = (i 1).val / 2048 := congrFun ht 1
  refine ⟨t, flush1_2 t, ?_⟩
  rw [mem_output_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-! ## The array after the region -/

/-- The output array after the region, for any region-entry contents `V` whose input array is `X` and whose
    scale row is `S`: entry `(r, f)` is `X(r, f) · (1 + S(0, f))`. -/
theorem final (V : (c : Dev nD) → (b : Ref sig .tc) → Buf (Elt F) ((c : Thread nD τ).loc b)) (c : Dev nD)
    (X : S8192x4096.Idx → Elt F .f32) (S : S1x4096.Idx → Elt F .f32) (hX : V c main_arg0 = X) (hS : V c main_v46 = S) :
    (dat1 V c).arrAt 2 cfg1.N = fun i => FloatOps.mulf (X i) (FloatOps.addf (FloatOps.ofBits .f32 0x3F800000#32) (S (ix2 (0 : Fin 1) ⟨(i 1).val, (i 1).isLt⟩))) := by
  subst hX hS
  exact (dat1 V c).arrAt_eq_of_cover 2 (scaled (V c main_arg0) (V c main_v46)) (fun t _ => written_back_eq V c t) output_blocks_cover

end Cert.KernelIdeal.ScaleValue

end
-- ==== Proof.SumSplit.lean ====
/-
  A sum over 8192 consecutive positions taken as eight runs of 1024: the column total of an [8192, 4096] array, which
  one program forms row block by row block and the other in one pass, is the same element of any commutative additive
  monoid either way (on the extended reals: no finiteness is needed, only associativity and commutativity of `+`).
-/
import Mathlib.Algebra.BigOperators.Fin
import Mathlib.Algebra.BigOperators.Intervals

namespace Cert.SumSplit

open Finset

variable {M : Type*} [AddCommMonoid M]

/-- The first `1024 · n` terms of a sequence, summed run by run: `n` runs of 1024 consecutive terms. -/
theorem sum_range_runs (g : ℕ → M) (n : ℕ) :
    ∑ k ∈ range (1024 * n), g k = ∑ b ∈ range n, ∑ r ∈ range 1024, g (1024 * b + r) := by
  induction n with
  | zero => simp
  | succ n ih =>
    rw [Nat.mul_succ, sum_range_add, ih]
    exact (sum_range_succ (fun b => ∑ r ∈ range 1024, g (1024 * b + r)) n).symm

/-- 8192 terms are eight runs of 1024. -/
theorem sum_range_8192 (g : ℕ → M) :
    ∑ k ∈ range 8192, g k = ∑ b ∈ range 8, ∑ r ∈ range 1024, g (1024 * b + r) :=
  sum_range_runs g 8

end Cert.SumSplit
-- ==== Proof.ColumnSum.lean ====
/-
  What the first region leaves in its result row: the column totals of the input array.

  The region walks a 2 × 8 grid of points t = 8·fi + bi. At each point it adds, to a [1, 2048] block of the result row
  (block fi), the sum over the 1024 rows of the input block (bi, fi); the block is zeroed at bi = 0 and written back at
  bi = 7. So after the point t the block holds the sum of the row blocks 0 … t mod 8 of the columns
  2048·(t / 8) … 2048·(t / 8) + 2047 (an induction on the point), and what the points with t mod 8 = 7 write back is,
  column by column, the sum of eight runs of 1024 consecutive rows — the sum over all 8192 rows. Over the extended
  reals only associativity and commutativity of + are used, with 0 + a = a for the zeroed block.
-/
import proofs.«132048_j73864847556934_1_alg».proof.Proof.Gen.KernelIdeal.Frame
import proofs.«132048_j73864847556934_1_alg».proof.Proof.SumSplit
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.ColumnSum

open Cert.KernelIdeal Cert.KernelIdeal.Gen Idealize.ShloMosaic Idealize.ShloMosaic.TcCoe Idealize.SL.Sem
open Idealize.ShloMosaic.ValueIdx
open Idealize.ShloMosaic.Pipeline (Dat)

/-! ## What each control case leaves in the result block, as a value (any float values) -/

section Pieces

variable {F : FTy → Type} [FloatOps F]

theorem hz : (![0, 0] : Fin 2 → Nat) = fun _ => 0 := funext fun a => by fin_cases a <;> rfl

/-- Away from the first row block the body leaves, in the result block holding `xo`, `xo` plus the row sum of the
    input block `x`: its one covering store's payload, whose loads read the whole buffers. -/
theorem out_B (c : Dev nD) (i : grid0.Coords) (a1 : Memref sig .tc .vmem S1024x2048 .f32) (h1 : a1.IsWhole)
    (a2 : Memref sig .tc .vmem S1x2048 .f32) (h2 : a2.IsWhole) (hc : ¬cond0_0 i) (x : Vec F S1024x2048 .f32)
    (xo : Vec F S1x2048 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S1x2048) hz,
    View.ld_unit_zero (S := S1024x2048) hz]

/-- At the first row block the body stores the zero block, reads it back, and leaves the zero block plus the row sum
    of the input block. -/
theorem out_A (c : Dev nD) (i : grid0.Coords) (a1 : Memref sig .tc .vmem S1024x2048 .f32) (h1 : a1.IsWhole)
    (a2 : Memref sig .tc .vmem S1x2048 .f32) (h2 : a2.IsWhole) (hc : cond0_0 i) (x : Vec F S1024x2048 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x2048) hz, View.readCov_unit_zero (S := S1x2048) _ hz]
  simp only [View.readAt_eq_ld, h1.read_unread, View.ld_unit_zero (S := S1024x2048) hz]

end Pieces

/-! ## The payloads at an index, over the extended reals -/

/-- The source index of the row sum at lane `l` with row `r` put back is `(r, l)`. -/
theorem lift_eq (l : Fin 2048) (r : Fin 1024) : reduces_S1024x2048_S2048.lift (ix1 l) r = ix2 r l := by
  funext a
  apply Fin.ext
  match a with
  | ⟨0, _⟩ => rfl
  | ⟨1, _⟩ => rfl

/-- The reduction over the rows of a [1024, 2048] block, at lane `l`: the sum of the lane's 1024 entries. -/
theorem rowsum_apply (x : Vec Ideal S1024x2048 .f32) (l : Fin 2048) :
    multiReduction (F := Ideal) .add [0] S2048 x 0x00000000#32 reduces_S1024x2048_S2048 (.inl rfl) rfl (ix1 l)
      = ∑ r : Fin 1024, x (ix2 r l) := by
  refine (Ideal.multiReduction_add_single x 0x00000000#32 reduces_S1024x2048_S2048 (.inl rfl) rfl (ix1 l)).trans ?_
  exact Finset.sum_congr rfl fun r _ => congrArg x (lift_eq l r)

/-- The body's sum at lane `l`: what the result block held there plus the lane's 1024 entries of the input block. -/
theorem pay2_apply (xo : Vec Ideal S1x2048 .f32) (x : Vec Ideal S1024x2048 .f32) (l : Fin 2048) :
    k0_pay2 xo x (ix2 (0 : Fin 1) l) = xo (ix2 (0 : Fin 1) l) + ∑ r : Fin 1024, x (ix2 r l) := by
  unfold k0_pay2
  refine (addf_apply _ _ _).trans ?_
  refine congrArg₂ (· + ·) ?_ ?_
  · exact congrFun (shapeCast_self xo shapeCasts_S1x2048_S1x2048) _
  · refine (shapeCast_a_1a_apply _ shapeCasts_S2048_S1x2048 (0 : Fin 1) l).trans ?_
    exact rowsum_apply x l

/-- The zero block is zero at every lane. -/
theorem pay1_apply (l : Fin 2048) : k0_pay1 (F := Ideal) (ix2 (0 : Fin 1) l) = 0 := by
  unfold k0_pay1
  exact Ideal.ofBits_zero_f32

/-! ## The input block at a point, read off the input array -/

/-- The input array read at any pair of naturals (zero outside it), so that row and column arithmetic stays in ℕ. -/
def entry (X : S8192x4096.Idx → EReal) (k f : ℕ) : EReal :=
  if h : k < 8192 ∧ f < 4096 then X (ix2 ⟨k, h.1⟩ ⟨f, h.2⟩) else 0

/-- Where the windows sit at point `t = 8·fi + bi`: the input block at (bi, fi), the result block at (0, fi). -/
theorem idx_facts : ∀ t : Fin cfg0.N, win0_0.index t (0 : Fin 2) = t.val % 8 ∧ win0_0.index t (1 : Fin 2) = t.val / 8
    ∧ win0_1.index t (0 : Fin 2) = 0 ∧ win0_1.index t (1 : Fin 2) = t.val / 8 :=
  (by decide +kernel : ∀ t : Fin grid0.N, _)

section Region

variable (V : (c : Dev nD) → (b : Ref sig .tc) → Buf (Elt Ideal) ((c : Thread nD τ).loc b)) (c : Dev nD)
variable (X : S8192x4096.Idx → EReal)

/-- Entry (r, l) of the input block at point `t` is entry (1024·(t mod 8) + r, 2048·(t / 8) + l) of the input array:
    a block's coordinate is its index times its size plus the coordinate inside it. -/
theorem iblk_apply (hX : V c main_arg0 = X) (t : Fin cfg0.N) (r : Fin 1024) (l : Fin 2048) :
    (iblk0 V c 0 t : Vec Ideal S1024x2048 .f32) (ix2 r l)
      = entry X (1024 * (t.val % 8) + r.val) (2048 * (t.val / 8) + l.val) := by
  have hN : cfg0.N = 16 := N_0
  have ht : t.val < cfg0.N := t.isLt
  have hr : r.val < 1024 := r.isLt
  have hl : l.val < 2048 := l.isLt
  obtain ⟨e0, e1, -, -⟩ := idx_facts t
  have hk : 1024 * (t.val % 8) + r.val < 8192 := by omega
  have hf : 2048 * (t.val / 8) + l.val < 4096 := by omega
  unfold iblk0 entry
  rw [View.read_apply, dif_pos ⟨hk, hf⟩]
  show V c main_arg0 _ = _
  rw [hX]
  congr 1
  funext a
  apply Fin.ext
  match a with
  | ⟨0, _⟩ => show win0_0.index t (0 : Fin 2) * 1024 + 1 * r.val = 1024 * (t.val % 8) + r.val; rw [e0]; omega
  | ⟨1, _⟩ => show win0_0.index t (1 : Fin 2) * 2048 + 1 * l.val = 2048 * (t.val / 8) + l.val; rw [e1]; omega

end Region

section Region2

variable (V : (c : Dev nD) → (b : Ref sig .tc) → Buf (Elt Ideal) ((c : Thread nD τ).loc b)) (c : Dev nD)
variable (X : S8192x4096.Idx → EReal)

/-! ## The running sum, by induction on the point -/

/-- The sum of row block `b` (rows 1024·b … 1024·b + 1023) of column `f`. -/
def blockSum (X : S8192x4096.Idx → EReal) (b f : ℕ) : EReal := ∑ r ∈ Finset.range 1024, entry X (1024 * b + r) f

/-- The lane sum of a block whose entry (r, l) is row 1024·b + r of column `f`: the sum of row block `b` of that
    column. -/
theorem rowsum_eq (x : Vec Ideal S1024x2048 .f32) (b f : ℕ) (l : Fin 2048)
    (hx : ∀ r : Fin 1024, x (ix2 r l) = entry X (1024 * b + r.val) f) :
    ∑ r : Fin 1024, x (ix2 r l) = blockSum X b f := by
  unfold blockSum
  rw [← Fin.sum_univ_eq_sum_range (fun r => entry X (1024 * b + r) f) 1024]
  exact Finset.sum_congr rfl fun r _ => hx r

/-- At a point of the first row block the result block holds that block's row sum (the zero block plus it). -/
theorem outsAt_first (hX : V c main_arg0 = X) (t : Fin cfg0.N) (h0 : t.val % 8 = 0) (l : Fin 2048) :
    outsAt0 V c t.val t.isLt (ix2 (0 : Fin 1) l) = blockSum X (t.val % 8) (2048 * (t.val / 8) + l.val) := by
  rw [outsAt0_A V c t h0,
    out_A c (grid0.coords t) (ms0_0 t) (hs0_0 t) (ms0_1 t) (hs0_1 t) ((hcond0_0 t).mpr h0) (iblk0 V c 0 t)]
  refine (pay2_apply (k0_pay1 (F := Ideal)) (iblk0 V c 0 t) l).trans ?_
  rw [pay1_apply l, zero_add]
  exact rowsum_eq X (iblk0 V c 0 t) (t.val % 8) (2048 * (t.val / 8) + l.val) l (fun r => iblk_apply V c X hX t r l)

/-- At any other point it holds what the point before left plus this point's row sum. -/
theorem outsAt_next (hX : V c main_arg0 = X) (t : Fin cfg0.N) (h0 : ¬t.val % 8 = 0) (l : Fin 2048) :
    outsAt0 V c t.val t.isLt (ix2 (0 : Fin 1) l)
      = outsAt0 V c (t.val - 1) (Nat.lt_of_le_of_lt (Nat.sub_le _ _) t.isLt) (ix2 (0 : Fin 1) l)
        + blockSum X (t.val % 8) (2048 * (t.val / 8) + l.val) := by
  rw [outsAt0_B V c t h0,
    out_B c (grid0.coords t) (ms0_0 t) (hs0_0 t) (ms0_1 t) (hs0_1 t) (fun h => h0 ((hcond0_0 t).mp h)) (iblk0 V c 0 t)
      (outsAt0 V c (t.val - 1) (Nat.lt_of_le_of_lt (Nat.sub_le _ _) t.isLt))]
  refine (pay2_apply (outsAt0 V c (t.val - 1) (Nat.lt_of_le_of_lt (Nat.sub_le _ _) t.isLt)) (iblk0 V c 0 t) l).trans ?_
  exact congrArg (_ + ·)
    (rowsum_eq X (iblk0 V c 0 t) (t.val % 8) (2048 * (t.val / 8) + l.val) l (fun r => iblk_apply V c X hX t r l))

/-- After the point `n` the result block holds, at lane `l`, the sum of the row blocks 0 … n mod 8 of column
    2048·(n / 8) + l. -/
theorem outsAt_apply (hX : V c main_arg0 = X) : ∀ (n : ℕ) (h : n < cfg0.N) (l : Fin 2048),
    outsAt0 V c n h (ix2 (0 : Fin 1) l) = ∑ b ∈ Finset.range (n % 8 + 1), blockSum X b (2048 * (n / 8) + l.val)
  | 0, h, l => by
    rw [show (0 : ℕ) % 8 + 1 = 1 from rfl, Finset.sum_range_one]
    exact outsAt_first V c X hX ⟨0, h⟩ rfl l
  | n + 1, h, l => by
    by_cases h0 : (n + 1) % 8 = 0
    · rw [h0, Finset.sum_range_one]
      have e := outsAt_first V c X hX ⟨n + 1, h⟩ h0 l
      rw [show (⟨n + 1, h⟩ : Fin cfg0.N).val % 8 = 0 from h0] at e
      exact e
    · have e := outsAt_next V c X hX ⟨n + 1, h⟩ h0 l
      have ih := outsAt_apply hX n (Nat.lt_of_succ_lt h) l
      have hq : (n + 1) / 8 = n / 8 := by omega
      have hm : (n + 1) % 8 = n % 8 + 1 := by omega
      rw [Finset.sum_range_succ]
      refine e.trans ?_
      show outsAt0 V c n _ (ix2 (0 : Fin 1) l) + blockSum X ((n + 1) % 8) (2048 * ((n + 1) / 8) + l.val) = _
      rw [ih, hq, hm]

/-! ## What is written back, and the result row -/

/-- The column totals, as contents of the result row. -/
def total (X : S8192x4096.Idx → EReal) : S1x4096.Idx → EReal :=
  fun i => ∑ k : Fin 8192, X (ix2 k ⟨(i 1).val, (i 1).isLt⟩)

/-- Eight row blocks of a column are the whole column. -/
theorem blocks_eq_total (f : ℕ) (hf : f < 4096) :
    ∑ b ∈ Finset.range 8, blockSum X b f = ∑ k : Fin 8192, X (ix2 k ⟨f, hf⟩) := by
  unfold blockSum
  rw [← Cert.SumSplit.sum_range_8192 (fun k => entry X k f), ← Fin.sum_univ_eq_sum_range (fun k => entry X k f) 8192]
  refine Finset.sum_congr rfl fun k _ => ?_
  unfold entry
  rw [dif_pos ⟨k.isLt, hf⟩]

/-- At a point that writes back (t mod 8 = 7) the result block holds, at lane `l`, the total of column 2048·(t / 8) + l. -/
theorem outsAt_last (hX : V c main_arg0 = X) (t : Fin cfg0.N) (h7 : t.val % 8 = 7) (l : Fin 2048) (hf : 2048 * (t.val / 8) + l.val < 4096) :
    outsAt0 V c t.val t.isLt (ix2 (0 : Fin 1) l) = ∑ k : Fin 8192, X (ix2 k ⟨2048 * (t.val / 8) + l.val, hf⟩) := by
  rw [outsAt_apply V c X hX t.val t.isLt l, h7]
  exact blocks_eq_total X _ hf

end Region2

section Region3

variable (V : (c : Dev nD) → (b : Ref sig .tc) → Buf (Elt Ideal) ((c : Thread nD τ).loc b)) (c : Dev nD)
variable (X : S8192x4096.Idx → EReal)

/-- What a writing point writes back is its block of the column totals: lane `l` of block t / 8 is column
    2048·(t / 8) + l. -/
theorem flushed_eq (hX : V c main_arg0 = X) (t : Fin cfg0.N) (hf : (cfg0.win 1).flush t = true) :
    (dat0 V c).flushed 1 t = ((cfg0.win 1).blk t).view.read (Elt Ideal) (total X) := by
  have hN : cfg0.N = 16 := N_0
  have ht : t.val < cfg0.N := t.isLt
  have h7 : t.val % 8 = 7 := (flush0_1 t).mp hf
  obtain ⟨-, -, e2, e3⟩ := idx_facts t
  show (cfg0.win 1).cut (grid0.coords t) ((dat0 V c).after 1 t) = _
  rw [after0_1]
  funext j
  rw [View.read_apply]
  show outsAt0 V c t.val t.isLt j = total X (((cfg0.win 1).blk t).view.emb j)
  have hj0 : ((j : S1x2048.Idx) 0).val < 1 := (j 0).isLt
  have hj1 : ((j : S1x2048.Idx) 1).val < 2048 := (j 1).isLt
  have hcol : 2048 * (t.val / 8) + ((j : S1x2048.Idx) 1).val < 4096 := by omega
  have ej : (j : S1x2048.Idx) = ix2 (0 : Fin 1) ⟨((j : S1x2048.Idx) 1).val, hj1⟩ := by
    funext a
    apply Fin.ext
    match a with
    | ⟨0, _⟩ => show ((j : S1x2048.Idx) 0).val = 0; omega
    | ⟨1, _⟩ => rfl
  refine (congrArg (outsAt0 V c t.val t.isLt) ej).trans ?_
  refine (outsAt_last V c X hX t h7 ⟨((j : S1x2048.Idx) 1).val, hj1⟩ hcol).trans ?_
  unfold total
  refine Finset.sum_congr rfl fun k _ => congrArg X ?_
  funext a
  apply Fin.ext
  match a with
  | ⟨0, _⟩ => rfl
  | ⟨1, _⟩ =>
    show 2048 * (t.val / 8) + ((j : S1x2048.Idx) 1).val = win0_1.index t (1 : Fin 2) * 2048 + 1 * ((j : S1x2048.Idx) 1).val
    rw [e3]; omega

/-- An index of the result row is in point `t`'s block iff each coordinate is in the block's range on its axis. -/
theorem mem_blk (t : Fin cfg0.N) (i : S1x4096.Idx) :
    i ∈ ((cfg0.win 1).blk t).view.set ↔ ∀ a : Fin 2, win0_1.index t a * S1x2048.size a ≤ (i a).val
      ∧ (i a).val < win0_1.index t a * S1x2048.size a + S1x2048.size a := by
  show i ∈ ((View.whole main_v0).slice (win0_1.rect t)).set ↔ _
  rw [View.set_slice_whole, Rect.mem_set_unit]
  exact Iff.rfl

/-- Column `f` of the result row lies in the block written back at the point 8·(f / 2048) + 7. -/
theorem cover (i : S1x4096.Idx) :
    ∃ t : Fin cfg0.N, (cfg0.win 1).flush t = true ∧ i ∈ ((cfg0.win 1).blk t).view.set := by
  have hi0 : (i 0).val < 1 := (i 0).isLt
  have hi1 : (i 1).val < 4096 := (i 1).isLt
  have hlt : 8 * ((i 1).val / 2048) + 7 < 16 := by omega
  let t : Fin cfg0.N := ⟨8 * ((i 1).val / 2048) + 7, lt_of_lt_of_eq hlt N_0.symm⟩
  have htv : t.val = 8 * ((i 1).val / 2048) + 7 := rfl
  obtain ⟨-, -, e2, e3⟩ := idx_facts t
  refine ⟨t, (flush0_1 t).mpr (by rw [htv]; omega), ?_⟩
  rw [mem_blk]
  intro a
  match a with
  | ⟨0, _⟩ =>
    show win0_1.index t (0 : Fin 2) * 1 ≤ (i 0).val ∧ (i 0).val < win0_1.index t (0 : Fin 2) * 1 + 1
    rw [e2]; omega
  | ⟨1, _⟩ =>
    show win0_1.index t (1 : Fin 2) * 2048 ≤ (i 1).val ∧ (i 1).val < win0_1.index t (1 : Fin 2) * 2048 + 2048
    rw [e3, htv]; omega

/-- After the region the result row holds the column totals of the input array as the region found it. -/
theorem final (V : (c : Dev nD) → (b : Ref sig .tc) → Buf (Elt Ideal) ((c : Thread nD τ).loc b)) (c : Dev nD)
    (X : S8192x4096.Idx → EReal) (hX : V c main_arg0 = X) :
    (dat0 V c).arrAt 1 cfg0.N = fun i => ∑ k : Fin 8192, X (ix2 k ⟨(i 1).val, (i 1).isLt⟩) :=
  (dat0 V c).arrAt_eq_of_cover 1 (total X) (fun t hf => flushed_eq V c X hX t hf) cover

end Region3

end Cert.KernelIdeal.ColumnSum

end
-- ==== Proof.KernelValue.lean ====
/-
  The idealized kernel's result as ONE function of its two arguments, on the extended reals. Reading the run's last
  boundary at the result buffer: the second region leaves  x (r, f) · (1 + s (0, f))  there, `x` the input as launched
  and `s` the scale row it was entered with; that row is the shared host function (`Chain.scaleOf`) of the first
  region's output array — taken as a vector — and the noise vector as launched; and the first region's output array is
  the column totals of the input as launched. So the result is  x (r, f) · (1 + scale f),  the scale that host
  function of the column totals and the noise: the function `spec`, which the reference is shown to compute too.
-/
import proofs.«132048_j73864847556934_1_alg».proof.Proof.Between
import proofs.«132048_j73864847556934_1_alg».proof.Proof.ScaleValue
import proofs.«132048_j73864847556934_1_alg».proof.Proof.ColumnSum
import Idealize.ShloMosaic.Lib.ValueIdx
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx

/-- The column totals of an [8192, 4096] array of extended reals, as a length-4096 vector. -/
def colTotals (x : FVec Ideal S8192x4096 .f32) : FVec Ideal S4096 .f32 :=
  fun j => ∑ k : Fin 8192, x (ix2 k ⟨(j 0).val, (j 0).isLt⟩)

/-- THE RESULT, entry by entry: `x (r, f) · (1 + scale f)`, the scale the shared host function of the column totals
    and the noise vector. (The word `1.0` is the same on both sides and is never evaluated.) -/
def spec (x : FVec Ideal S8192x4096 .f32) (noise : FVec Ideal S4096 .f32) : FVec Ideal S8192x4096 .f32 :=
  fun i => FloatOps.mulf (x i) (FloatOps.addf (FloatOps.ofBits .f32 0x3F800000#32)
    (Chain.scaleOf (colTotals x) noise (ix1 ⟨(i 1).val, (i 1).isLt⟩)))

variable (m : (ℓ : Loc nD τ sig) → Buf (Elt Ideal) ℓ) (ρ : Dev nD → PrngReg)

/-- The first region's output array, reshaped to a vector, is the column totals of the input as launched. -/
theorem colVector_eq (c : Dev nD) :
    shapeCast S4096 (W1 m ρ c (Proc.devRef .tc main_v0)) shapeCasts_S1x4096_S4096
      = colTotals (m ((c : Thread nD τ).loc main_arg0)) := by
  funext j
  obtain ⟨f, rfl⟩ : ∃ f : Fin 4096, j = ix1 f := ⟨j 0, eq_ix1 j⟩
  refine (shapeCast_1a_a_apply _ _ f).trans ?_
  refine (congrFun (Between.colRow_eq m ρ c) _).trans ?_
  exact (congrFun (ColumnSum.final (V0 m ρ) c _ (Between.input_at_launch m ρ c)) _).trans rfl

/-- The scale row the second region is entered with, at column `f`: the shared host function of the column totals and
    the noise vector as launched, at feature `f`. -/
theorem scaleRow_apply (c : Dev nD) (f : Fin 4096) :
    shapeCast S1x4096 (Chain.scaleOf (shapeCast S4096 (W1 m ρ c (Proc.devRef .tc main_v0)) shapeCasts_S1x4096_S4096)
        (W1 m ρ c (Proc.devRef .tc main_arg1))) shapeCasts_S4096_S1x4096 (ix2 (0 : Fin 1) f)
      = Chain.scaleOf (colTotals (m ((c : Thread nD τ).loc main_arg0))) (m ((c : Thread nD τ).loc main_arg1)) (ix1 f) := by
  refine (shapeCast_a_1a_apply _ _ (0 : Fin 1) f).trans ?_
  rw [colVector_eq, Between.noise_eq]

/-- The result buffer after the run, as one function of the two arguments as launched. -/
theorem result_at (c : Dev nD) :
    W7 m ρ c (Proc.devRef .tc main_v47)
      = spec (m ((c : Thread nD τ).loc main_arg0)) (m ((c : Thread nD τ).loc main_arg1)) := by
  refine (Between.result_eq m ρ c).trans ?_
  refine (ScaleValue.final (V6 m ρ) c _ _ (Between.input_at_second m ρ c) (Between.scaleRow_eq m ρ c)).trans ?_
  funext i
  beta_reduce
  rw [scaleRow_apply m ρ c ⟨(i 1).val, (i 1).isLt⟩]
  rfl

end Cert.KernelIdeal.KernelValue

end
-- ==== Proof.lean ====
/-
  The kernel against its reference: per-feature multiplicative noise on an [8192, 4096] input `x`, the noise scale a
  function of the batch means of the 4096 features.

  Both programs compute  x (r, f) · (1 + scale f).  The scale is one host computation of the column sums of `x` and
  the noise vector (the mean, its least and greatest entries, a histogram of the quantised means, a power, a square
  root: `Chain.scaleOf`), which both programs apply operation for operation; it is carried as one function of the value
  that enters it and never opened. What differs is how the column sums arise. The reference adds the 8192 rows of a
  column in one host reduction from the zero word. The kernel's first region walks a 2 × 8 grid, zeroing a block of the
  result row at the first row block and adding, at each point, the sum of the 1024 rows of an input block; its second
  region multiplies block by block. On the extended reals a sum of 8192 terms is the sum of eight runs of 1024
  (associativity and commutativity of `+`, and `0 + a = a`), so the two column sums are one value and the two results
  one function, `KernelValue.spec`, of the arguments. No finiteness is used: the precondition is never opened.

  The three frames: the two kernels' are the generated frame certificates; the reference, which has no kernel, keeps
  its arguments because its run — every operation a host operation — says so. The idealization rewrote nothing, so
  there is nothing to preserve.
-/
import proofs.«132048_j73864847556934_1_alg».proof.Defs
import proofs.«132048_j73864847556934_1_alg».proof.Proof.Gen.Kernel
import proofs.«132048_j73864847556934_1_alg».proof.Proof.Gen.Kernel.Frame
import proofs.«132048_j73864847556934_1_alg».proof.Proof.Gen.KernelIdeal
import proofs.«132048_j73864847556934_1_alg».proof.Proof.Gen.KernelIdeal.Frame
import proofs.«132048_j73864847556934_1_alg».proof.Proof.Gen.ReferenceIdeal
import proofs.«132048_j73864847556934_1_alg».proof.Proof.Gen.Pre_finite_inputs
import proofs.«132048_j73864847556934_1_alg».proof.Proof.RefRunPatched
import proofs.«132048_j73864847556934_1_alg».proof.Proof.RefValue
import proofs.«132048_j73864847556934_1_alg».proof.Proof.ValueRun
import proofs.«132048_j73864847556934_1_alg».proof.Proof.KernelValue
import Idealize.ShloMosaic.Adequacy
import Idealize.ShloMosaic.Init

noncomputable section

namespace Cert.Proof

open Idealize.ShloMosaic Idealize.ShloMosaic.TcCoe Idealize.SL.Sem
open Cert.KernelIdeal.KernelValue (spec colTotals)

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- On the extended reals the reference's column sums are the column totals: the host reduction's `0 + Σ` is `Σ`. -/
theorem reference_colSums (x : FVec Ideal Cert.ReferenceIdeal.S8192x4096 .f32) :
    Cert.ReferenceIdeal.RefValue.colSums (F := Ideal) x = colTotals x :=
  funext fun j => (Cert.ReferenceIdeal.RefValue.colSums_apply x j).trans rfl

/-- The reference's result is the same function `spec` of its arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.RunP.res_main_v49 m c
      = spec (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  funext i
  rw [Cert.ReferenceIdeal.RefValue.result_apply, reference_colSums]
  rfl

/-- From memories agreeing on the arguments both idealized programs run, and end with the result array at
    `spec` of the arguments: equal extended reals, entry by entry. -/
theorem algebraic : Cert.algebraic_KernelIdeal_ReferenceIdeal := by
  intro m ρ m' ρ' _ hagree
  refine ⟨fun c => spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KernelValue.result_at m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.RunP.run (F := Ideal) m' ρ')
    rw [reference_result m' c, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
